-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel

variable [Facts]

def fn {F : FTy → Type} [FloatOps F] (main_arg0 : FVec F S32x2048 .f32) (main_arg1 : IVec S32x2048 32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  main_v3
-- ==== Kernel.lean ====
abbrev S32x2048 : Shape := ⟨2, ![32, 2048]⟩
abbrev S1x1 : Shape := ⟨2, ![1, 1]⟩
abbrev S32 : Shape := ⟨1, ![32]⟩
abbrev S32x1 : Shape := ⟨2, ![32, 1]⟩
abbrev S1 : Shape := ⟨1, ![1]⟩
abbrev S_ : Shape := ⟨0, ![]⟩

abbrev nBuf : Space → Nat
  | .hbm => 4
  | .vmem => 3
  | .smem => 0
  | _ => 0

abbrev bufTy : (tb : Table) → Fin (tcTables nBuf tb) → BufTy
  | .hbm, ⟨0, _⟩ => ⟨S32x2048, .f32⟩
  | .hbm, ⟨1, _⟩ => ⟨S32x2048, .i32⟩
  | .hbm, ⟨2, _⟩ => ⟨S1x1, .f32⟩
  | .hbm, ⟨3, _⟩ => ⟨S_, .f32⟩
  | .local _ .vmem, ⟨0, _⟩ => ⟨S32x2048, .f32⟩
  | .local _ .vmem, ⟨1, _⟩ => ⟨S32x2048, .i32⟩
  | .local _ .vmem, ⟨2, _⟩ => ⟨S1x1, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S32x2048_S32x2048_0_0 : ∀ a, (![0, 0] : Fin 2 → Nat) a + S32x2048.size a ≤ S32x2048.size a
  h_S32x2048 : 0 < S32x2048.numel
  reduces_S32x2048_S32 : S32x2048.Reduces [1] S32
  shapeCasts_S32_S32x1 : S32.ShapeCasts S32x1
  natLt_1_32 : 1 < 32
  reduces_S32x1_S1 : S32x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x2048.size a
  hwx0_0 : ∀ i : grid0.Coords, EltTy.bits .f32 = 32 ∨ (Rect.block (s := S32x2048) S32x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S32x2048.size a
  hwx0_1 : ∀ i : grid0.Coords, EltTy.bits .i32 = 32 ∨ (Rect.block (s := S32x2048) S32x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S32x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048 : Shape := ⟨2, ![32, 2048]⟩
abbrev S_ : Shape := ⟨0, ![]⟩
abbrev S32x2048x1 : Shape := ⟨3, ![32, 2048, 1]⟩
abbrev S32x1x2048 : Shape := ⟨3, ![32, 1, 2048]⟩
abbrev S32x2048x2048 : Shape := ⟨3, ![32, 2048, 2048]⟩
abbrev S32 : Shape := ⟨1, ![32]⟩

abbrev nBuf : Space → Nat
  | .hbm => 32
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x2048, .i32⟩
  | .hbm, ⟨2, _⟩ => ⟨S_, .i32⟩
  | .hbm, ⟨3, _⟩ => ⟨S32x2048, .i32⟩
  | .hbm, ⟨4, _⟩ => ⟨S32x2048, .i1⟩
  | .hbm, ⟨5, _⟩ => ⟨S32x2048, .i1⟩
  | .hbm, ⟨6, _⟩ => ⟨S32x2048x1, .i1⟩
  | .hbm, ⟨7, _⟩ => ⟨S32x1x2048, .i1⟩
  | .hbm, ⟨8, _⟩ => ⟨S32x2048x2048, .i1⟩
  | .hbm, ⟨9, _⟩ => ⟨S32x2048x2048, .i1⟩
  | .hbm, ⟨10, _⟩ => ⟨S32x2048x2048, .i1⟩
  | .hbm, ⟨11, _⟩ => ⟨S32x1x2048, .f32⟩
  | .hbm, ⟨12, _⟩ => ⟨S32x2048x1, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S32x2048x2048, .f32⟩
  | .hbm, ⟨17, _⟩ => ⟨S_, .f32⟩
  | .hbm, ⟨18, _⟩ => ⟨S32x2048x2048, .f32⟩
  | .hbm, ⟨19, _⟩ => ⟨S32x2048x2048, .f32⟩
  | .hbm, ⟨20, _⟩ => ⟨S_, .f32⟩
  | .hbm, ⟨21, _⟩ => ⟨S32, .f32⟩
  | .hbm, ⟨22, _⟩ => ⟨S32x2048x2048, .i32⟩
  | .hbm, ⟨23, _⟩ => ⟨S_, .i32⟩
  | .hbm, ⟨24, _⟩ => ⟨S32, .i32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S_, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_call0_v0 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S32x2048x2048 : S_.BroadcastsInDim S32x2048x2048 (![] : Fin 0 → Fin S32x2048x2048.rank)
  reducesTo_S32x2048x2048_S32_d1_2 : S32x2048x2048.ReducesTo [1, 2] S32
  h_S_ : 0 < S_.numel
  natLt_1_32 : 1 < 32
  bcast_S_S32 : S_.BroadcastsInDim S32 (![] : Fin 0 → Fin S32.rank)
  reducesTo_S32_S_d0 : S32.ReducesTo [0] S_

variable [Facts₀]

class Facts : Prop extends Facts₀ where

variable [Facts]
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibERealMatrix.lean ====
/-
  General facts about finite sums and products of extended reals, as a matrix computation at exact
  arithmetic needs them.

  On the extended reals addition and multiplication are commutative and associative, so regrouping a
  sum (a reduction axis cut into blocks and accumulated block by block) needs no hypothesis. Distributing a
  product over a sum does need one: it fails at the infinities. A triple matrix product can therefore be
  re-associated, (sᵀ A) t = sᵀ (A t), once every entry is a real number; the proof passes to the reals, where
  it is the interchange of two finite sums.
-/
import Mathlib.Data.EReal.Operations
import Mathlib.Algebra.BigOperators.Fin
import Mathlib.Algebra.BigOperators.Ring.Finset
import Mathlib.Algebra.BigOperators.Group.Finset.Sigma
import Mathlib.Logic.Equiv.Fin.Basic
import Mathlib.Tactic.Ring

namespace LibERealMatrix

open Finset

/-- An extended real is FINITE when it is neither infinity: it is the image of a real number. -/
def Fin' (x : EReal) : Prop := x ≠ ⊤ ∧ x ≠ ⊥

theorem Fin'.coe (r : ℝ) : Fin' (r : EReal) := ⟨EReal.coe_ne_top r, EReal.coe_ne_bot r⟩

theorem Fin'.exists_real {x : EReal} (h : Fin' x) : ∃ r : ℝ, x = (r : EReal) :=
  ⟨x.toReal, (EReal.coe_toReal h.1 h.2).symm⟩

/-- A family of finite extended reals is the image of a family of reals. -/
theorem exists_real_family {ι : Type*} (f : ι → EReal) (h : ∀ i, Fin' (f i)) :
    ∃ g : ι → ℝ, ∀ i, f i = (g i : EReal) :=
  ⟨fun i => (f i).toReal, fun i => (EReal.coe_toReal (h i).1 (h i).2).symm⟩

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.add {x y : EReal} (hx : Fin' x) (hy : Fin' y) : Fin' (x + y) := by
  obtain ⟨a, rfl⟩ := hx.exists_real
  obtain ⟨b, rfl⟩ := hy.exists_real
  rw [← EReal.coe_add]; exact Fin'.coe _

theorem Fin'.mul {x y : EReal} (hx : Fin' x) (hy : Fin' y) : Fin' (x * y) := by
  obtain ⟨a, rfl⟩ := hx.exists_real
  obtain ⟨b, rfl⟩ := hy.exists_real
  rw [← EReal.coe_mul]; exact Fin'.coe _

/-- A finite sum of finite extended reals is finite. -/
theorem Fin'.sum {ι : Type*} (s : Finset ι) (f : ι → EReal) (h : ∀ i, Fin' (f i)) :
    Fin' (∑ i ∈ s, f i) := by
  obtain ⟨g, hg⟩ := exists_real_family f h
  simp only [hg]
  rw [← coe_sum]; exact Fin'.coe _

/-- A sum over `Fin (n * b)` is the sum over the `n` blocks of the sums over the `b` positions inside a
    block; the element at block `k`, position `r` is the one numbered `r + b * k`. No hypothesis: only
    commutativity and associativity of the addition are used. -/
theorem sum_fin_mul {M : Type*} [AddCommMonoid M] (n b : ℕ) (f : Fin (n * b) → M) :
    ∑ x, f x = ∑ k : Fin n, ∑ r : Fin b, f (finProdFinEquiv (k, r)) :=
  ((finProdFinEquiv (m := n) (n := b)).sum_comp f).symm.trans (Fintype.sum_prod_type _)

theorem finProdFinEquiv_val (n b : ℕ) (k : Fin n) (r : Fin b) :
    ((finProdFinEquiv (k, r) : Fin (n * b)) : ℕ) = r.val + b * k.val := rfl

/-- A scalar product whose index set is cut into `n` blocks of `b` is the sum of the `n` partial scalar
    products, whatever the entries (infinite ones included). -/
theorem dot_blocked (n b : ℕ) (u v : Fin (n * b) → EReal) :
    ∑ x, u x * v x = ∑ k : Fin n, ∑ r : Fin b, u (finProdFinEquiv (k, r)) * v (finProdFinEquiv (k, r)) :=
  sum_fin_mul n b fun x => u x * v x

/-- The same over ranges of naturals: the numbers below `n * b` are the `r + b * s` with `s < n`, `r < b`. -/
theorem sum_range_mul {M : Type*} [AddCommMonoid M] (n b : ℕ) (f : ℕ → M) :
    ∑ J ∈ range (n * b), f J = ∑ s ∈ range n, ∑ r ∈ range b, f (r + b * s) := by
  rw [← Fin.sum_univ_eq_sum_range f (n * b), sum_fin_mul n b (fun x => f x.val),
    ← Fin.sum_univ_eq_sum_range (fun s => ∑ r ∈ range b, f (r + b * s)) n]
  refine Finset.sum_congr rfl fun s _ => ?_
  rw [← Fin.sum_univ_eq_sum_range (fun r => f (r + b * s.val)) b]
  rfl

/-- An accumulator that starts at zero and takes four partial sums in turn ends at their sum. -/
theorem acc_four {M : Type*} [AddCommMonoid M] (d : Fin 4 → M) :
    (((0 + d 0) + d 1) + d 2) + d 3 = ∑ k, d k := by
  rw [Fin.sum_univ_four, zero_add]

/-- Re-association of a triple product of matrices with FINITE entries:
    `∑ j, (∑ i, s i * A i j) * t j = ∑ i, s i * ∑ j, A i j * t j`. With an infinite entry this fails
    (the product does not distribute over a sum of opposite infinities). -/
theorem sum_mul_sum_assoc {ι κ : Type*} [Fintype ι] [Fintype κ]
    (s : ι → EReal) (A : ι → κ → EReal) (t : κ → EReal)
    (hs : ∀ i, Fin' (s i)) (hA : ∀ i j, Fin' (A i j)) (ht : ∀ j, Fin' (t j)) :
    ∑ j, (∑ i, s i * A i j) * t j = ∑ i, s i * ∑ j, A i j * t j := by
  obtain ⟨s', hs'⟩ := exists_real_family s hs
  obtain ⟨A', hA'⟩ : ∃ g : ι → κ → ℝ, ∀ i j, A i j = (g i j : EReal) :=
    ⟨fun i j => (A i j).toReal, fun i j => (EReal.coe_toReal (hA i j).1 (hA i j).2).symm⟩
  obtain ⟨t', ht'⟩ := exists_real_family t ht
  have hL : ∀ j, (∑ i, s i * A i j) * t j = (((∑ i, s' i * A' i j) * t' j : ℝ) : EReal) := by
    intro j
    rw [EReal.coe_mul, coe_sum, ht']
    refine congrArg (· * (t' j : EReal)) (Finset.sum_congr rfl fun i _ => ?_)
    rw [hs', hA', EReal.coe_mul]
  have hR : ∀ i, s i * ∑ j, A i j * t j = ((s' i * ∑ j, A' i j * t' j : ℝ) : EReal) := by
    intro i
    rw [EReal.coe_mul, coe_sum, hs']
    refine congrArg ((s' i : EReal) * ·) (Finset.sum_congr rfl fun j _ => ?_)
    rw [hA', ht', EReal.coe_mul]
  simp only [hL, hR]
  rw [← coe_sum, ← coe_sum]
  refine congrArg _ ?_
  simp only [Finset.sum_mul, Finset.mul_sum]
  rw [Finset.sum_comm]
  exact Finset.sum_congr rfl fun i _ => Finset.sum_congr rfl fun j _ => by ring

end LibERealMatrix
-- ==== Proof.LibMaskSums.lean ====
/-
  Sums over a finite index set restricted by a mask, as a pairwise ranking loss needs them.

  * A double sum of products u i · v j over the pairs with p i and q j factors into the product of the two
    masked single sums (any commutative semiring): this is what turns a sum over all (positive, negative)
    pairs into a product of two row sums.
  * On the extended reals, multiplying a finite sum by a non-negative REAL constant distributes over the sum,
    whatever the summands (infinite ones included).
  * A one-bit word is 0 or 1; widened to 32 bits it is the natural number 0 or 1, and a natural number below
    2^31 read back from its 32-bit word as a signed integer is itself: so a wrapping 32-bit count of at most
    2^31 - 1 mask bits is the true count.
-/
import Mathlib.Data.EReal.Operations
import Mathlib.Data.BitVec
import Mathlib.Algebra.BigOperators.Ring.Finset
import Mathlib.Algebra.Order.BigOperators.Group.Finset

namespace LibMaskSums

open Finset

/-- The sum of u i · v j over the pairs (i, j) with p i and q j is the product of the sum of the u i with p i
    and the sum of the v j with q j. -/
theorem sum_mask_mul {R : Type*} [CommSemiring R] {ι κ : Type*} [Fintype ι] [Fintype κ] (p : ι → Prop) (q : κ → Prop)
    [DecidablePred p] [DecidablePred q] (u : ι → R) (v : κ → R) :
    ∑ i, ∑ j, (if p i ∧ q j then u i * v j else 0) = (∑ i, if p i then u i else 0) * (∑ j, if q j then v j else 0) := by
  rw [Finset.sum_mul_sum]
  refine Finset.sum_congr rfl fun i _ => Finset.sum_congr rfl fun j _ => ?_
  by_cases hp : p i <;> by_cases hq : q j <;> simp [hp, hq]

/-- A non-negative real factor distributes over a finite sum of extended reals. -/
theorem sum_mul_coe_of_nonneg {ι : Type*} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- A one-bit word is 0 or 1. -/
theorem bit_cases (c : BitVec 1) : c = 0#1 ∨ c = 1#1 := by
  by_cases h : c = 1#1
  · exact Or.inr h
  · left
    have := c.isLt
    apply BitVec.eq_of_toNat_eq
    have h' : c.toNat ≠ 1 := fun e => h (BitVec.eq_of_toNat_eq (by simpa using e))
    simp; omega

/-- Flipping a bit (exclusive or with 1) sets it exactly when it was clear. -/
theorem xor_one_eq_one_iff (c : BitVec 1) : c ^^^ 1#1 = 1#1 ↔ ¬ c = 1#1 := by
  rcases bit_cases c with rfl | rfl <;> decide

/-- The complement of a bit is set exactly when the bit was clear. -/
theorem not_eq_one_iff (c : BitVec 1) : ~~~c = 1#1 ↔ ¬ c = 1#1 := by
  rcases bit_cases c with rfl | rfl <;> decide

/-- The conjunction of two bits is set exactly when both are. -/
theorem and_eq_one_iff (c d : BitVec 1) : c &&& d = 1#1 ↔ c = 1#1 ∧ d = 1#1 := by
  rcases bit_cases c with rfl | rfl <;> rcases bit_cases d with rfl | rfl <;> decide

/-- A bit widened to 32 bits is the natural number 0 or 1 as a word. -/
theorem setWidth_bit (c : BitVec 1) : c.setWidth 32 = ((if c = 1#1 then 1 else 0 : ℕ) : BitVec 32) := by
  rcases bit_cases c with rfl | rfl <;> decide

/-- A bit widened to 32 bits and read as a signed integer is 0 or 1. -/
theorem toInt_setWidth_bit (c : BitVec 1) : (c.setWidth 32).toInt = if c = 1#1 then 1 else 0 := by
  rcases bit_cases c with rfl | rfl <;> decide

/-- A natural number below 2^31, stored in a 32-bit word and read back signed, is itself. -/
theorem toInt_natCast_of_lt (n : ℕ) (h : n < 2 ^ 31) : ((n : BitVec 32)).toInt = (n : ℤ) := by
  have hn : ((n : BitVec 32)).toNat = n := by
    rw [BitVec.natCast_eq_ofNat, BitVec.toNat_ofNat]; omega
  rw [BitVec.toInt_eq_toNat_of_lt (by rw [hn]; omega), hn]

/-- The wrapping 32-bit sum, from zero, of the words 0 or 1 marking the pairs (i, j) with p i and q j, read back
    signed, is the number of marked i times the number of marked j, provided the index sets together hold fewer
    than 2^31 pairs. -/
theorem toInt_pair_count {ι κ : Type*} [Fintype ι] [Fintype κ] (p : ι → Prop) (q : κ → Prop)
    [DecidablePred p] [DecidablePred q] (hcard : Fintype.card ι * Fintype.card κ < 2 ^ 31) :
    ((0#32 + ∑ i, ∑ j, ((if p i ∧ q j then 1 else 0 : ℕ) : BitVec 32)).toInt : ℝ)
      = (∑ i, if p i then (1 : ℝ) else 0) * (∑ j, if q j then (1 : ℝ) else 0) := by
  have hb : ∑ i : ι, ∑ j : κ, (if p i ∧ q j then 1 else 0 : ℕ) < 2 ^ 31 := by
    refine lt_of_le_of_lt ?_ hcard
    calc ∑ i : ι, ∑ j : κ, (if p i ∧ q j then 1 else 0 : ℕ)
        ≤ ∑ _i : ι, ∑ _j : κ, 1 :=
          Finset.sum_le_sum fun i _ => Finset.sum_le_sum fun j _ => by split <;> omega
      _ = Fintype.card ι * Fintype.card κ := by simp
  have hw : (0#32 + ∑ i, ∑ j, ((if p i ∧ q j then 1 else 0 : ℕ) : BitVec 32))
      = ((∑ i : ι, ∑ j : κ, (if p i ∧ q j then 1 else 0 : ℕ) : ℕ) : BitVec 32) := by
    rw [show (0#32 : BitVec 32) = 0 from rfl, zero_add]
    push_cast
    rfl
  rw [hw, toInt_natCast_of_lt _ hb]
  have := sum_mask_mul (R := ℝ) p q (fun _ => 1) (fun _ => 1)
  simp only [mul_one] at this
  rw [← this]
  push_cast
  rfl

end LibMaskSums
-- ==== Proof.Spec.lean ====
/-
  The pairwise exponential ranking loss over B = 32 rows of C = 2048 scores, at exact arithmetic, in the two
  arrangements the two programs compute, and the proof that they are one number when every score is finite.

  For a row b let P be the set of positions whose label is 1 and N its complement. The pairwise arrangement is
      pairExp b = sum over i in P, j in N of exp(x j - x i),     pairCnt b = |P| * |N| counted pair by pair,
  the factored arrangement
      posExp b = sum over i in P of exp(-x i),  negExp b = sum over j in N of exp(x j),  posCnt = |P|, negCnt = |N|.
  For finite scores exp(x j - x i) = exp(-x i) * exp(x j), and a double sum of products over P x N is the product of
  the two sums; the same factoring with all terms 1 gives the counts. The row loss is the quotient of the two
  (both arrangements feed the same quotient the same two numbers, so its value at 0/0 never matters), and the
  total is the mean over the rows: a sum of quotients by 32 on one side, the sum times 1/32 on the other, equal
  because a non-negative real factor distributes over any sum of extended reals.
-/
import Idealize.ShloMosaic.PureOps.Ideal
import Idealize.ShloMosaic.Lib.ValueIdx
import proofs.«174833_j27281632264919_2_alg».proof.Proof.LibERealMatrix
import proofs.«174833_j27281632264919_2_alg».proof.Proof.LibMaskSums

noncomputable section

namespace RankLoss

open Idealize.ShloMosaic Idealize.ShloMosaic.ValueIdx LibERealMatrix

/-- The shape of the score and label arrays. -/
abbrev Arr : Shape := ⟨2, ![32, 2048]⟩

variable (X : Arr.Idx → EReal) (T : Arr.Idx → BitVec 32)

/-- Position i of row b carries the label 1. -/
abbrev pos (b : Fin 32) (i : Fin 2048) : Prop := T (ix2 b i) = 1#32

/-- The sum of exp(-x) over the positive positions of row b. -/
def posExp (b : Fin 32) : EReal := ∑ i : Fin 2048, if pos T b i then Ideal.exp (0 - X (ix2 b i)) else 0
/-- The sum of exp(x) over the negative positions of row b. -/
def negExp (b : Fin 32) : EReal := ∑ i : Fin 2048, if pos T b i then 0 else Ideal.exp (X (ix2 b i))
/-- The number of positive positions of row b. -/
def posCnt (b : Fin 32) : EReal := ((∑ i : Fin 2048, if pos T b i then (1 : ℝ) else 0 : ℝ) : EReal)
/-- The number of negative positions of row b. -/
def negCnt (b : Fin 32) : EReal := ((∑ i : Fin 2048, if pos T b i then (0 : ℝ) else 1 : ℝ) : EReal)
/-- Row b's loss, factored. -/
def rowLoss (b : Fin 32) : EReal := Ideal.div (posExp X T b * negExp X T b) (posCnt T b * negCnt T b)
/-- The mean of the row losses, as the sum times 1/32. -/
def loss : EReal := (∑ b : Fin 32, rowLoss X T b) * ((1 / 32 : ℝ) : EReal)

/-- The sum of exp(x j - x i) over the pairs (positive i, negative j) of row b. -/
def pairExp (b : Fin 32) : EReal :=
  ∑ i : Fin 2048, ∑ j : Fin 2048, if pos T b i ∧ ¬ pos T b j then Ideal.exp (X (ix2 b j) - X (ix2 b i)) else 0
/-- The number of such pairs, counted one by one in 32-bit wrapping arithmetic from zero and read back signed. -/
def pairCnt (b : Fin 32) : EReal :=
  (((0#32 + ∑ i : Fin 2048, ∑ j : Fin 2048, ((if pos T b i ∧ ¬ pos T b j then 1 else 0 : ℕ) : BitVec 32)).toInt : ℝ) : EReal)
/-- The mean of the row losses, pairwise: each row's quotient divided by 32, summed from zero. -/
def lossRef : EReal :=
  0 + ∑ b : Fin 32, Ideal.div (Ideal.div (0 + pairExp X T b) (pairCnt T b)) ((32 : ℝ) : EReal)

/-- For finite scores the pairwise sum of exponentials is the product of the two row sums. -/
theorem pairExp_eq (hX : ∀ i, Fin' (X i)) (b : Fin 32) : pairExp X T b = posExp X T b * negExp X T b := by
  obtain ⟨r, hr⟩ := exists_real_family X hX
  have e1 : ∀ u v : ℝ, Ideal.exp ((u : EReal) - (v : EReal)) = ((Real.exp (-v) * Real.exp u : ℝ) : EReal) := by
    intro u v
    rw [← EReal.coe_sub, Ideal.exp_coe, sub_eq_add_neg, Real.exp_add, mul_comm]
  have e0 : ∀ v : ℝ, Ideal.exp (0 - (v : EReal)) = ((Real.exp (-v) : ℝ) : EReal) := by
    intro v
    rw [← EReal.coe_zero, ← EReal.coe_sub, Ideal.exp_coe, zero_sub]
  have e2 : ∀ u : ℝ, Ideal.exp (u : EReal) = ((Real.exp u : ℝ) : EReal) := fun u => Ideal.exp_coe u
  have hite : ∀ (c : Prop) [Decidable c] (a : ℝ), (if c then (a : EReal) else 0) = ((if c then a else 0 : ℝ) : EReal) := by
    intro c _ a; split <;> simp
  have hite' : ∀ (c : Prop) [Decidable c] (a : ℝ), (if c then (0 : EReal) else (a : EReal)) = ((if ¬ c then a else 0 : ℝ) : EReal) := by
    intro c _ a; by_cases h : c <;> simp [h]
  unfold pairExp posExp negExp
  simp only [hr, e1, e0, e2, hite, hite', ← coe_sum, ← EReal.coe_mul]
  exact congrArg _ (LibMaskSums.sum_mask_mul (R := ℝ) (fun i => pos T b i) (fun j => ¬ pos T b j)
    (fun i => Real.exp (-(r (ix2 b i)))) (fun j => Real.exp (r (ix2 b j))))

/-- The pair count is the product of the two row counts: 2048 * 2048 pairs fit a signed 32-bit word. -/
theorem pairCnt_eq (b : Fin 32) : pairCnt T b = posCnt T b * negCnt T b := by
  unfold pairCnt posCnt negCnt
  rw [← EReal.coe_mul]
  refine congrArg _ ?_
  rw [LibMaskSums.toInt_pair_count (fun i : Fin 2048 => pos T b i) (fun j : Fin 2048 => ¬ pos T b j)
    (by simp only [Fintype.card_fin]; norm_num)]
  refine congrArg _ (Finset.sum_congr rfl fun j _ => ?_)
  by_cases h : pos T b j <;> simp [h]

/-- The two arrangements of the loss agree when every score is finite. -/
theorem lossRef_eq_loss (hX : ∀ i, Fin' (X i)) : lossRef X T = loss X T := by
  unfold lossRef loss rowLoss
  simp only [zero_add, pairExp_eq X T hX, pairCnt_eq, Ideal.div_coe (by norm_num : (32 : ℝ) ≠ 0)]
  exact LibMaskSums.sum_mul_coe_of_nonneg _ _ _ (by norm_num)

end RankLoss

end
-- ==== Proof.Consts.lean ====
/-
  The float constants the two programs spell, as the extended reals their bit patterns denote at exact
  arithmetic: the zero the sums start from, the reference's divisor 32, the kernel's factor 1/32 (an exact
  power of two, 2^-5), and the infinity the precondition compares against.
-/
import Idealize.ShloMosaic.PureOps.Ideal

noncomputable section

namespace RankLoss.Consts

open Idealize.ShloMosaic

/-- The pattern of +0.0 denotes 0. -/
theorem ofBits_zero : Ideal.ofBits .f32 0x00000000#32 = 0 := by
  simp [Ideal.ofBits, Ideal.ieee]

/-- The pattern of 32.0 denotes the real number 32. -/
theorem ofBits_32 : Ideal.ofBits .f32 0x42000000#32 = ((32 : ℝ) : EReal) := by
  simp [Ideal.ofBits, Ideal.ieee, -EReal.coe_mul]; norm_num

/-- The pattern of 0.03125 denotes the real number 1/32. -/
theorem ofBits_inv32 : Ideal.ofBits .f32 0x3D000000#32 = ((1 / 32 : ℝ) : EReal) := by
  simp [Ideal.ofBits, Ideal.ieee, -EReal.coe_mul]; norm_num

/-- The pattern of +infinity denotes the top element. -/
theorem ofBits_inf : Ideal.ofBits .f32 0x7F800000#32 = ⊤ := by
  simp [Ideal.ofBits, Ideal.ieee]

end RankLoss.Consts

end
-- ==== Proof.MaskBits.lean ====
/-
  The label mask as the programs compute it, read as a proposition.

  Both programs compare each label with the word 1, which yields one bit; a `select` on a bit chooses its first
  branch exactly when the bit is 1; a bit widened to 32 bits and converted to a float is the number 1 or 0.
-/
import Idealize.ShloMosaic.PureOps.Ideal
import Idealize.ShloMosaic.Lib.ValueIdx
import proofs.«174833_j27281632264919_2_alg».proof.Proof.LibMaskSums

noncomputable section

namespace RankLoss.MaskBits

open Idealize.ShloMosaic

/-- A select on a bit is an if-then-else on "the bit is 1". -/
theorem select_eq_ite {α : Type} (c : BitVec 1) (u v : α) : Scalar.select c u v = if c = 1#1 then u else v := rfl

/-- The comparison of a label with 1 is the bit "the label is 1". -/
theorem cmpi_eq_one_iff (t : BitVec 32) : IntOp.cmpi .eq t 1#32 = 1#1 ↔ t = 1#32 := by
  by_cases h : t = 1#32
  · simp [IntOp.cmpi, h]
  · have hb : (t == 1#32) = false := beq_eq_false_iff_ne.mpr h
    simp only [IntOp.cmpi, hb]
    constructor
    · intro e; exact absurd e (by decide)
    · intro e; exact absurd e h

/-- A bit widened to 32 bits and converted to a float, at exact arithmetic, is 1 or 0. -/
theorem sitofp_bit (c : BitVec 1) :
    FloatOps.sitofp (F := Ideal) .f32 (c.setWidth 32) = ((if c = 1#1 then (1 : ℝ) else 0 : ℝ) : EReal) := by
  show (((c.setWidth 32).toInt : ℝ) : EReal) = _
  rw [LibMaskSums.toInt_setWidth_bit]
  split <;> simp

/-- Under the mask the selected exponent is the first branch. -/
theorem exp_ite_pos (p : Prop) [Decidable p] (a b c : EReal) :
    (if p then Ideal.exp (if p then a else b) else c) = if p then Ideal.exp a else c := by
  split <;> simp [*]

/-- Outside the mask the selected exponent is the second branch. -/
theorem exp_ite_neg (p : Prop) [Decidable p] (a b c : EReal) :
    (if p then c else Ideal.exp (if p then a else b)) = if p then c else Ideal.exp b := by
  split <;> simp [*]

end RankLoss.MaskBits

end
-- ==== Proof.KernelValue.lean ====
/-
  What the kernel's body stores, at exact arithmetic: the factored ranking loss of its two input blocks.

  The body loads the scores x and the labels t, forms the mask "t = 1" and its complement, takes ONE exponential
  exp(-x) under the mask and exp(x) outside it, and sums over each row four masked arrays: the exponentials under
  the mask, the exponentials outside it, the mask itself and its complement (as 0/1 numbers). Each row's loss is the
  quotient of the product of the first two sums by the product of the last two; the 32 row losses are summed and
  the total multiplied by 1/32. Read entry by entry this is the function `RankLoss.loss`.
-/
import proofs.«174833_j27281632264919_2_alg».proof.Proof.Gen.KernelIdeal.Skeleton
import proofs.«174833_j27281632264919_2_alg».proof.Proof.LibKeepdims
import proofs.«174833_j27281632264919_2_alg».proof.Proof.Spec
import proofs.«174833_j27281632264919_2_alg».proof.Proof.Consts
import proofs.«174833_j27281632264919_2_alg».proof.Proof.MaskBits

noncomputable section

namespace RankLoss.KernelValue

open Idealize.ShloMosaic Idealize.ShloMosaic.ValueIdx Cert.KernelIdeal Cert.KernelIdeal.Gen LibKeepdims

/-- The part of the body after the four masked arrays a, b, c, d are formed: four row sums kept as columns, the
    quotient of the two products row by row, the sum of the 32 quotients, and the product with the scalar w. -/
theorem tail_apply (a b c d : FVec Ideal S32x2048 .f32) (acc : BitVec 32)
    (h1 : S32x2048.Reduces [1] S32) (hφ : FKind.Formats .f32) (hacc : acc = FKind.add.neutral .f32 hφ)
    (hc1 : S32.ShapeCasts S32x1) (h0 : S32x1.Reduces [0] S1) (hc2 : S1.ShapeCasts S1x1) (w : Ideal .f32) (z z' : Fin 1) :
    mulf (shapeCast S1x1 (multiReduction .add [0] S1
        (divf (mulf (shapeCast S32x1 (multiReduction .add [1] S32 a acc h1 hφ hacc) hc1)
                    (shapeCast S32x1 (multiReduction .add [1] S32 b acc h1 hφ hacc) hc1))
              (mulf (shapeCast S32x1 (multiReduction .add [1] S32 c acc h1 hφ hacc) hc1)
                    (shapeCast S32x1 (multiReduction .add [1] S32 d acc h1 hφ hacc) hc1)))
        acc h0 hφ hacc) hc2) (broadcast S1x1 w) (ix2 z z')
      = (∑ r : Fin 32, Ideal.div ((∑ k : Fin 2048, a (ix2 r k)) * (∑ k : Fin 2048, b (ix2 r k)))
          ((∑ k : Fin 2048, c (ix2 r k)) * (∑ k : Fin 2048, d (ix2 r k)))) * w := by
  rw [mulf_apply, broadcast_apply, shapeCast_col_apply, sum_axis0_apply]
  refine congrArg (· * w) (Finset.sum_congr rfl fun r _ => ?_)
  rw [divf_apply, mulf_apply, mulf_apply, shapeCast_col_apply, shapeCast_col_apply, shapeCast_col_apply,
    shapeCast_col_apply, sum_axis1_apply, sum_axis1_apply, sum_axis1_apply, sum_axis1_apply]

theorem cmpi_apply {s : Shape} {w : Nat} (p : CmpIPredicate) (x y : IVec s w) (i : s.Idx) :
    cmpi p x y i = IntOp.cmpi p (x i) (y i) := rfl
theorem xori_apply {s : Shape} {w : Nat} (x y : IVec s w) (i : s.Idx) : xori x y i = (x i) ^^^ (y i) := rfl
theorem exp_apply {s : Shape} {φ : FTy} (a : FVec Ideal s φ) (i : s.Idx) : exp a i = Ideal.exp (a i) := rfl
theorem constantI_apply {s : Shape} {w : ℕ} (b : BitVec w) (i : s.Idx) : constantI s w b i = b := rfl

theorem pay_eq (x0 : Vec Ideal S32x2048 .f32) (x1 : Vec Ideal S32x2048 .i32) (j : S1x1.Idx) :
    k0_pay1 (F := Ideal) x0 x1 j = loss x0 x1 := by
  obtain ⟨z, z', rfl⟩ : ∃ (z z' : Fin 1), j = ix2 z z' := ⟨j 0, j 1, eq_ix2 j⟩
  unfold k0_pay1
  refine (tail_apply _ _ _ _ _ _ _ _ _ _ _ _ z z').trans ?_
  simp only [select_apply, cmpi_apply, xori_apply, exp_apply, subf_apply, broadcast_apply, constantI_apply,
    extui_apply, sitofp_apply]
  simp only [MaskBits.select_eq_ite, MaskBits.sitofp_bit, LibMaskSums.xor_one_eq_one_iff, MaskBits.cmpi_eq_one_iff, ite_not,
    MaskBits.exp_ite_pos, MaskBits.exp_ite_neg, Ideal.ofBits_def, Consts.ofBits_zero, Consts.ofBits_inv32,
    ← LibERealMatrix.coe_sum]
  rfl

end RankLoss.KernelValue

end
-- ==== Proof.KernelRun.lean ====
/-
  The kernel's run, read: its result is the factored ranking loss of its two arguments.

  The grid has one point and every window's block is its whole array, so the block the body loads is the argument
  array itself and the one block it writes back covers the whole 1 x 1 output. The line after the region reshapes
  that 1 x 1 array into the scalar result.
-/
import proofs.«174833_j27281632264919_2_alg».proof.Proof.Gen.KernelIdeal.Frame
import proofs.«174833_j27281632264919_2_alg».proof.Proof.KernelValue
import Idealize.ShloMosaic.Lib.Pipeline.Value
import Idealize.ShloMosaic.Lib.StableHlo.Run

noncomputable section

namespace RankLoss.KernelRun

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- At the one grid point every window sits at block (0, 0). -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The score block at a point is the whole score array. -/
theorem iblk0_eq (c : Dev nD) (t : Fin cfg0.N) : iblk m c 0 t = V m c main_arg0 := by
  obtain ⟨e0, e1, -⟩ := idx_facts t
  funext y
  show V m c main_arg0 (((cfg0.win 0).blk t).view.emb y) = V m c main_arg0 y
  refine congrArg _ (funext fun a => Fin.ext ?_)
  match a with
  | ⟨0, _⟩ => show win0_0.index t (0 : Fin 2) * 32 + 1 * (y 0).val = (y 0).val; omega
  | ⟨1, _⟩ => show win0_0.index t (1 : Fin 2) * 2048 + 1 * (y 1).val = (y 1).val; omega

/-- The label block at a point is the whole label array. -/
theorem iblk1_eq (c : Dev nD) (t : Fin cfg0.N) : iblk m c 1 t = V m c main_arg1 := by
  obtain ⟨-, -, e0, e1, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 2048 + 1 * (y 1).val = (y 1).val; omega

/-- The 1 x 1 array holding the loss of the argument arrays. -/
abbrev G (c : Dev nD) : S1x1.Idx → EReal := fun _ => loss (V m c main_arg0) (V m c main_arg1)

/-- What a point writes back is the block of that array. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold out0_2
  rw [View.canon_unit_zero hz]
  simp only [View.ld_unit_zero (S := S32x2048) hz]
  funext j
  show k0_pay1 (iblk m c 0 t) (iblk m c 1 t) j = loss (V m c main_arg0) (V m c main_arg1)
  rw [KernelValue.pay_eq, iblk0_eq, iblk1_eq]

theorem mem_blk (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v0).slice (win0_2.rect t)).set ↔ _
  rw [View.set_slice_whole, Rect.mem_set_unit]
  exact Iff.rfl

/-- The one block covers the output. -/
theorem cover (i : S1x1.Idx) : ∃ t : Fin cfg0.N, (cfg0.win 2).flush t = true ∧ i ∈ ((cfg0.win 2).blk t).view.set := by
  refine ⟨t0_0, flush0_2 _, ?_⟩
  rw [mem_blk]
  obtain ⟨-, -, -, -, e4, e5⟩ := idx_facts t0_0
  have h0 : (i 0).val < 1 := (i 0).isLt
  have h1 : (i 1).val < 1 := (i 1).isLt
  intro a
  match a with
  | ⟨0, _⟩ => show win0_2.index t0_0 (0 : Fin 2) * 1 ≤ (i 0).val ∧ (i 0).val < win0_2.index t0_0 (0 : Fin 2) * 1 + 1; omega
  | ⟨1, _⟩ => show win0_2.index t0_0 (1 : Fin 2) * 1 ≤ (i 1).val ∧ (i 1).val < win0_2.index t0_0 (1 : Fin 2) * 1 + 1; omega

/-- The output array after the region. -/
theorem final (c : Dev nD) : (dats m 0 c).arrAt 2 cfg0.N = G m c :=
  (dats m 0 c).arrAt_eq_of_cover 2 (G m c) (fun t _ => flushed_eq m c t) cover

/-- The scalar result after the reshape. -/
theorem tail_eq (c : Dev nD) :
    Pipeline.afterTail₀ cfgs (dats m) 0 (V0 m) [hostOps1] c main_v1
      = fun _ => loss (m ((c.tc : Thread nD τ).loc main_arg0)) (m ((c.tc : Thread nD τ).loc main_arg1)) := by
  unfold Pipeline.afterTail₀
  show StableHlo.after hostOps1 _ (Proc.devRef .tc main_v1) = _
  after_results
  funext i
  have hw : Pipeline.withArrays (cfgs 0).spec c (V0 m c) (fun w => (dats m 0 c).arrAt w (cfgs 0).N) (Proc.devRef .tc main_v0) = G m c :=
    (Pipeline.withArrays_arr spec0 launch0.win.arr_inj c _ _ 2).trans (final m c)
  show shapeCast S_ (Pipeline.withArrays (cfgs 0).spec c (V0 m c) (fun w => (dats m 0 c).arrAt w (cfgs 0).N)
    (Proc.devRef .tc main_v0)) shapeCasts_S1x1_S_ i = _
  rw [hw]
  rfl

/-- The kernel's run: every weakly fair execution terminates with the result at the loss of the arguments and the
    arguments unchanged. -/
theorem run : θ_run defs (onTc (τ := τ) (main (F := Ideal))) ⟨m, fun _ => 0, ρ⟩ (fun r => ∀ c : Dev nD,
      r.2.mem ((c.tc : Thread nD τ).loc main_v1)
        = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v1 (Pipeline.mem_restRefs_of main_v1 rfl (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end RankLoss.KernelRun

end
-- ==== Proof.LibReduceTwoAxes.lean ====
/-
  A reduction of a rank-3 array over its last two axes, read at an index.

  The host's reductions are stated over the set of source indices that drop to a given result index. For a
  source of shape [A, B, C] reduced over axes 1 and 2 into [A], the indices that drop to `a` are exactly the
  (a, i, j), so a sum over that set is the double sum over `i` and `j`. This holds in any commutative monoid,
  hence both for the exact float sum on the extended reals and for the wrapping integer sum on 32-bit words.
-/
import Idealize.ShloMosaic.PureOps.Reduce
import Idealize.ShloMosaic.PureOps.Ideal.Laws
import Idealize.ShloMosaic.Lib.ValueIdx
import Mathlib.Data.BitVec

noncomputable section

namespace LibReduceTwoAxes

open Idealize.ShloMosaic Idealize.ShloMosaic.ValueIdx

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {A B C : Nat} : (⟨3, ![A, B, C]⟩ : Shape).Idx ≃ Fin A × Fin B × Fin C where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {A B C : Nat} (f : (⟨3, ![A, B, C]⟩ : Shape).Idx → M) :
    ∑ i, f i = ∑ a : Fin A, ∑ b : Fin B, ∑ c : Fin C, f (ix3 a b c) := by
  rw [← Equiv.sum_comp (idxEquiv3 (A := A) (B := B) (C := C)).symm f, Fintype.sum_prod_type]
  refine Finset.sum_congr rfl fun a _ => ?_
  rw [Fintype.sum_prod_type]
  rfl

/-- Dropping axes 1 and 2 of (a', i, j) leaves a'. -/
theorem drop12_eq_iff {A B C : Nat} (h : (⟨3, ![A, B, C]⟩ : Shape).ReducesTo [1, 2] ⟨1, ![A]⟩)
    (a a' : Fin A) (i : Fin B) (j : Fin C) : h.drop (ix3 a' i j) = ix1 a ↔ a' = a := by
  have hv : ((h.drop (ix3 a' i j)) 0 : Nat) = a'.val := rfl
  constructor
  · intro e
    apply Fin.ext
    rw [← hv, e]
    rfl
  · rintro rfl
    funext d
    match d with
    | ⟨0, _⟩ => exact Fin.ext hv

/-- A sum over the source indices that drop to `a` is the double sum over the two reduced coordinates. -/
theorem sum_filter_drop12 {M : Type*} [AddCommMonoid M] {A B C : Nat}
    (h : (⟨3, ![A, B, C]⟩ : Shape).ReducesTo [1, 2] ⟨1, ![A]⟩) (f : (⟨3, ![A, B, C]⟩ : Shape).Idx → M) (a : Fin A) :
    ∑ idx ∈ Finset.univ.filter (fun idx => h.drop idx = ix1 a), f idx = ∑ i : Fin B, ∑ j : Fin C, f (ix3 a i j) := by
  rw [Finset.sum_filter, sum_idx3]
  simp only [drop12_eq_iff]
  rw [Finset.sum_eq_single a]
  · simp
  · intro b _ hb
    simp [hb]
  · intro ha
    exact absurd (Finset.mem_univ a) ha

/-- The host's exact float sum over axes 1 and 2, read at `a`: the initial value plus the double sum. -/
theorem hostReduceAdd_axes12 {A B C : Nat} (h : (⟨3, ![A, B, C]⟩ : Shape).ReducesTo [1, 2] ⟨1, ![A]⟩)
    (x : (⟨3, ![A, B, C]⟩ : Shape).Idx → EReal) (init : EReal) (a : Fin A) :
    Ideal.hostReduceAdd h x init (ix1 a) = init + ∑ i : Fin B, ∑ j : Fin C, x (ix3 a i j) := by
  unfold Ideal.hostReduceAdd
  rw [sum_filter_drop12]

/-- A fold of the wrapping integer addition over a finite set is the initial word plus the sum of the words. -/
theorem fold_addi_eq_sum {ι : Type*} {w : Nat} (S : Finset ι) (init : BitVec w) (x : ι → BitVec w) :
    S.fold IntOp.addi init x = init + ∑ i ∈ S, x i := by
  induction S using Finset.cons_induction with
  | empty => simp
  | cons a S ha ih =>
    rw [Finset.fold_cons, Finset.sum_cons, ih]
    show x a + (init + _) = init + (x a + _)
    exact add_left_comm _ _ _

/-- The host's integer sum over axes 1 and 2, read at `a`: the initial word plus the double sum of words. -/
theorem hostReduce_addi_axes12 {A B C w : Nat} {u : Shape} (h : (⟨3, ![A, B, C]⟩ : Shape).ReducesTo [1, 2] ⟨1, ![A]⟩)
    (x : (⟨3, ![A, B, C]⟩ : Shape).Idx → BitVec w) (init : u.Idx → BitVec w) (hu : 0 < u.numel) (a : Fin A) :
    Host.reduce IntOp.addi x init h hu (ix1 a)
      = init (Shape.Idx.first hu) + ∑ i : Fin B, ∑ j : Fin C, x (ix3 a i j) := by
  rw [Host.reduce_eq_fold, fold_addi_eq_sum, sum_filter_drop12]

end LibReduceTwoAxes

end
-- ==== Proof.RefValue.lean ====
/-
  What the reference computes, at exact arithmetic: the pairwise ranking loss of its two arguments.

  The reference builds, for every row b and every pair (i, j) of positions, the bit "label (b, i) is 1 and label
  (b, j) is not" and the number exp(x (b, j) - x (b, i)); it sums the selected exponentials over the pairs of a
  row, counts the selected pairs in 32-bit integers, divides, divides by 32 and sums over the rows. Read index
  by index (the generated stage lemmas for the pointwise and layout operations, a double sum for each reduction
  over the two pair axes) this is the function `RankLoss.lossRef`.
-/
import proofs.«174833_j27281632264919_2_alg».proof.Proof.Gen.ReferenceIdeal.Read
import proofs.«174833_j27281632264919_2_alg».proof.Proof.LibReduceTwoAxes
import proofs.«174833_j27281632264919_2_alg».proof.Proof.Spec
import proofs.«174833_j27281632264919_2_alg».proof.Proof.Consts
import proofs.«174833_j27281632264919_2_alg».proof.Proof.MaskBits

noncomputable section

namespace RankLoss.RefValue

open Idealize.ShloMosaic Idealize.ShloMosaic.ValueIdx Cert.ReferenceIdeal Cert.ReferenceIdeal.Gen Cert.ReferenceIdeal.Read

variable (X : Arr.Idx → EReal) (T : Arr.Idx → BitVec 32)

/-- The pair mask at (b, i, j): label (b, i) is 1 and label (b, j) is not. -/
theorem mask_iff (b : Fin 32) (i j : Fin 2048) :
    val_main_v7 (F := Ideal) T (ix3 b i j) = 1#1 ↔ pos T b i ∧ ¬ pos T b j := by
  have e5 : idx_main_v3 (idx_main_v5 (ix3 b i j)) = ix2 b i :=
    funext fun a => Fin.ext (by match a with | ⟨0, _⟩ => rfl | ⟨1, _⟩ => rfl)
  have e6 : idx_main_v4 (idx_main_v6 (ix3 b i j)) = ix2 b j :=
    funext fun a => Fin.ext (by match a with | ⟨0, _⟩ => rfl | ⟨1, _⟩ => rfl)
  rw [val_main_v7_apply, val_main_v5_apply, val_main_v3_apply, val_main_v1_apply, val_main_v0_apply, val_main_c_apply,
    val_main_v6_apply, val_main_v4_apply, val_main_v2_apply, val_main_v1_apply, val_main_v0_apply, val_main_c_apply, e5, e6]
  show (IntOp.cmpi .eq (T (ix2 b i)) 1#32) &&& ~~~(IntOp.cmpi .eq (T (ix2 b j)) 1#32) = 1#1 ↔ _
  rw [LibMaskSums.and_eq_one_iff, LibMaskSums.not_eq_one_iff, MaskBits.cmpi_eq_one_iff, MaskBits.cmpi_eq_one_iff]

/-- A choice on the pair mask is a choice on the two labels. -/
theorem ite_mask {α : Type} (b : Fin 32) (i j : Fin 2048) (u v : α) :
    (if val_main_v7 (F := Ideal) T (ix3 b i j) = 1#1 then u else v) = if pos T b i ∧ ¬ pos T b j then u else v := by
  by_cases h : val_main_v7 (F := Ideal) T (ix3 b i j) = 1#1
  · rw [if_pos h, if_pos ((mask_iff T b i j).1 h)]
  · rw [if_neg h, if_neg (fun h' => h ((mask_iff T b i j).2 h'))]

/-- The selected exponential at (b, i, j). -/
theorem v14_apply (b : Fin 32) (i j : Fin 2048) :
    val_main_v14 (F := Ideal) X T (ix3 b i j)
      = if pos T b i ∧ ¬ pos T b j then Ideal.exp (X (ix2 b j) - X (ix2 b i)) else 0 := by
  have e10 : idx_main_v8 (idx_main_v10 (ix3 b i j)) = ix2 b j :=
    funext fun a => Fin.ext (by match a with | ⟨0, _⟩ => rfl | ⟨1, _⟩ => rfl)
  have e11 : idx_main_v9 (idx_main_v11 (ix3 b i j)) = ix2 b i :=
    funext fun a => Fin.ext (by match a with | ⟨0, _⟩ => rfl | ⟨1, _⟩ => rfl)
  rw [val_main_v14_apply, val_main_v13_apply, val_main_v12_apply, val_main_v10_apply, val_main_v8_apply,
    val_main_v11_apply, val_main_v9_apply, val_main_call0_v0_apply, val_main_cst_apply, e10, e11]
  simp only [MaskBits.select_eq_ite, Ideal.hostUnary_exp_def, Ideal.subf_def, Ideal.ofBits_def, Consts.ofBits_zero]
  exact ite_mask T b i j _ _

/-- The sum of the selected exponentials over the pairs of row b, from the initial zero. -/
theorem v15_apply (b : Fin 32) : val_main_v15 (F := Ideal) X T (ix1 b) = 0 + pairExp X T b := by
  unfold val_main_v15
  simp only [Host.reduceAdd, Ideal.hostReduceAdd_def]
  rw [LibReduceTwoAxes.hostReduceAdd_axes12]
  simp only [v14_apply, val_main_cst_0_apply, Ideal.ofBits_def, Consts.ofBits_zero]
  rfl

/-- The number of selected pairs of row b, counted in 32-bit words and converted. -/
theorem v18_apply (b : Fin 32) : val_main_v18 (F := Ideal) T (ix1 b) = pairCnt T b := by
  rw [val_main_v18_apply]
  unfold val_main_v17
  rw [LibReduceTwoAxes.hostReduce_addi_axes12]
  have e16 : ∀ i j : Fin 2048, val_main_v16 (F := Ideal) T (ix3 b i j)
      = ((if pos T b i ∧ ¬ pos T b j then 1 else 0 : ℕ) : BitVec 32) := by
    intro i j
    rw [val_main_v16_apply, LibMaskSums.setWidth_bit, ite_mask]
  simp only [e16, val_main_c_1_apply]
  rfl

/-- Row b's quotient, divided by 32. -/
theorem v21_apply (b : Fin 32) :
    val_main_v21 (F := Ideal) X T (ix1 b)
      = Ideal.div (Ideal.div (0 + pairExp X T b) (pairCnt T b)) ((32 : ℝ) : EReal) := by
  rw [val_main_v21_apply, val_main_v19_apply, v15_apply, v18_apply, val_main_v20_apply, val_main_cst_2_apply]
  simp only [Ideal.hostDivf_def, Ideal.ofBits_def, Consts.ofBits_32]

/-- The reference's result is the pairwise loss. -/
theorem ref_eq (i : S_.Idx) : val_main_v22 (F := Ideal) X T i = lossRef X T := by
  rw [val_main_v22_apply, val_main_cst_3_apply, LibReduceTwoAxes.sum_idx1]
  simp only [v21_apply, Ideal.ofBits_def, Consts.ofBits_zero]
  rfl

end RankLoss.RefValue

end
-- ==== Proof.Finite.lean ====
/-
  The precondition read back: every score is a real number.

  The precondition is the conjunction, over all 32 x 2048 positions, of |x| < +infinity. At exact arithmetic
  |x| is max x (-x), which is below the top element exactly when x is neither infinity.
-/
import proofs.«174833_j27281632264919_2_alg».proof.Pre_finite_inputs
import proofs.«174833_j27281632264919_2_alg».proof.Proof.Gen.Pre_finite_inputs
import proofs.«174833_j27281632264919_2_alg».proof.Proof.LibERealMatrix
import proofs.«174833_j27281632264919_2_alg».proof.Proof.Consts
import Idealize.ShloMosaic.Lib.ReduceAll
import Idealize.ShloMosaic.Lib.ValueIdx
import Idealize.ShloMosaic.PureOps.Ideal.Laws

noncomputable section

namespace RankLoss.Finite

open Idealize.ShloMosaic Cert.Pre_finite_inputs

/-- If the precondition holds of the score array X, every entry of X is finite. -/
theorem finite_of_pre (X : FVec Ideal S32x2048 .f32) (T : IVec S32x2048 32)
    (h : Cert.Pre_finite_inputs.fn (F := Ideal) X T = fun _ => 1#1) (i : S32x2048.Idx) :
    LibERealMatrix.Fin' (X i) := by
  have h0 := congrFun h ValueIdx.ix0
  dsimp only [Cert.Pre_finite_inputs.fn] at h0
  haveI : Subsingleton S_.Idx := ⟨fun a b => funext fun d => d.elim0⟩
  have hi := Host.reduce_andi_all _ _ _ _ _ h0 i
  have hi' : Ideal.cmp .olt (max (X i) (-(X i))) (Ideal.ofBits .f32 0x7F800000#32) = 1#1 := hi
  rw [Consts.ofBits_inf] at hi'
  have hlt : max (X i) (-(X i)) < ⊤ := by
    by_contra hn
    have hz : Ideal.cmp .olt (max (X i) (-(X i))) ⊤ = 0#1 := by simp [Ideal.cmp, hn]
    rw [hz] at hi'
    exact absurd hi' (by decide)
  constructor
  · intro e; rw [e] at hlt; simp at hlt
  · intro e; rw [e] at hlt; simp at hlt

end RankLoss.Finite

end
-- ==== Proof.lean ====
/-
  The certificate: the kernel and the reference compute the same ranking loss at exact arithmetic.

  The three frames are the generated frame runs (the reference's is its generated run with the result dropped); the
  idealization rewrote nothing, so `preserves` is trivial. For the algebraic claim the kernel's run ends at the
  factored loss of its arguments (Proof/KernelRun.lean over Proof/KernelValue.lean), the reference's run at the
  pairwise loss of its arguments (Proof/RefValue.lean), the arguments agree, the precondition makes every score a
  real number (Proof/Finite.lean), and for real scores the two arrangements are one number (Proof/Spec.lean).
-/
import proofs.«174833_j27281632264919_2_alg».proof.Defs
import proofs.«174833_j27281632264919_2_alg».proof.Proof.Gen.Kernel
import proofs.«174833_j27281632264919_2_alg».proof.Proof.Gen.Kernel.Skeleton
import proofs.«174833_j27281632264919_2_alg».proof.Proof.Gen.Kernel.Launch
import proofs.«174833_j27281632264919_2_alg».proof.Proof.Gen.Kernel.Points
import proofs.«174833_j27281632264919_2_alg».proof.Proof.Gen.Kernel.Frame
import proofs.«174833_j27281632264919_2_alg».proof.Proof.Gen.KernelIdeal
import proofs.«174833_j27281632264919_2_alg».proof.Proof.Gen.KernelIdeal.Skeleton
import proofs.«174833_j27281632264919_2_alg».proof.Proof.Gen.KernelIdeal.Launch
import proofs.«174833_j27281632264919_2_alg».proof.Proof.Gen.KernelIdeal.Points
import proofs.«174833_j27281632264919_2_alg».proof.Proof.Gen.KernelIdeal.Frame
import proofs.«174833_j27281632264919_2_alg».proof.Proof.Gen.ReferenceIdeal
import proofs.«174833_j27281632264919_2_alg».proof.Proof.Gen.Pre_finite_inputs
import proofs.«174833_j27281632264919_2_alg».proof.Proof.Gen.ReferenceIdeal.Run
import proofs.«174833_j27281632264919_2_alg».proof.Proof.Gen.ReferenceIdeal.Read
import proofs.«174833_j27281632264919_2_alg».proof.Proof.KernelRun
import proofs.«174833_j27281632264919_2_alg».proof.Proof.RefValue
import proofs.«174833_j27281632264919_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end at the loss of the kernel's arguments: the kernel's in the factored arrangement, the
    reference's in the pairwise one, equal because the precondition makes every score finite. -/
theorem algebraic : Cert.algebraic_KernelIdeal_ReferenceIdeal := by
  intro m ρ m' ρ' hpre hagree
  refine ⟨_, RankLoss.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2]
  funext i
  rw [RankLoss.RefValue.ref_eq]
  exact RankLoss.lossRef_eq_loss _ _ (fun j => RankLoss.Finite.finite_of_pre _ _ (hpre c) j)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
